-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S1x1 : Shape := ⟨2, ![1, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008 .f32) (main_arg3 : IVec S11008x4096 1) (main_arg4 : FVec F S1x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S1x1 .f32 := Host.absf main_arg4
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S1x1 : Shape := ⟨2, ![1, 1]⟩
abbrev S_ : Shape := ⟨0, ![]⟩
abbrev S8192x4096 : Shape := ⟨2, ![8192, 4096]⟩
abbrev S1x11008 : Shape := ⟨2, ![1, 11008]⟩
abbrev S8192x11008 : Shape := ⟨2, ![8192, 11008]⟩
abbrev S4x2048x11008 : Shape := ⟨3, ![4, 2048, 11008]⟩
abbrev S2048x4096 : Shape := ⟨2, ![2048, 4096]⟩
abbrev S256x4096 : Shape := ⟨2, ![256, 4096]⟩
abbrev S1x256 : Shape := ⟨2, ![1, 256]⟩
abbrev S2048x256 : Shape := ⟨2, ![2048, 256]⟩

abbrev nBuf : Space → Nat
  | .hbm => 18
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S11008x4096, .i1⟩
  | .hbm, ⟨4, _⟩ => ⟨S1x1, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S11008x4096, .bf16⟩
  | .hbm, ⟨13, _⟩ => ⟨S8192x4096, .f32⟩
  | .hbm, ⟨14, _⟩ => ⟨S8192x4096, .bf16⟩
  | .hbm, ⟨15, _⟩ => ⟨S1x11008, .f32⟩
  | .hbm, ⟨16, _⟩ => ⟨S8192x11008, .f32⟩
  | .hbm, ⟨17, _⟩ => ⟨S4x2048x11008, .f32⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S11008x4096 : S_.BroadcastsInDim S11008x4096 (![] : Fin 0 → Fin S11008x4096.rank)
  bcast_S1x1_S11008x4096_0_1 : S1x1.BroadcastsInDim S11008x4096 (![0, 1] : Fin 2 → Fin S11008x4096.rank)
  bitsLt_bf16_f32 : FTy.bits .bf16 < FTy.bits .f32
  shapeCasts_S4x2048x4096_S8192x4096 : S4x2048x4096.ShapeCasts S8192x4096
  shapeCasts_S11008_S1x11008 : S11008.ShapeCasts S1x11008
  shapeCasts_S8192x11008_S4x2048x11008 : S8192x11008.ShapeCasts S4x2048x11008
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x11008.size a
  hwx0_3 : ∀ i : grid0.Coords, EltTy.bits .f32 = 32 ∨ (Rect.block (s := S8192x11008) S2048x256.size (cc0_transform_3 i) (hinb0_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_call0_v8) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S1x1 : Shape := ⟨2, ![1, 1]⟩
abbrev S_ : Shape := ⟨0, ![]⟩
abbrev S4x2048x11008 : Shape := ⟨3, ![4, 2048, 11008]⟩
abbrev S1x1x11008 : Shape := ⟨3, ![1, 1, 11008]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S11008x4096, .i1⟩
  | .hbm, ⟨4, _⟩ => ⟨S1x1, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S11008x4096, .f32⟩
  | .hbm, ⟨13, _⟩ => ⟨S11008x4096, .f32⟩
  | .hbm, ⟨14, _⟩ => ⟨S4x2048x11008, .f32⟩
  | .hbm, ⟨15, _⟩ => ⟨S1x1x11008, .f32⟩
  | .hbm, ⟨16, _⟩ => ⟨S4x2048x11008, .f32⟩
  | .hbm, ⟨17, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S1x1_S11008x4096_0_1 : S1x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.FiniteWeight.lean ====
/-
  Under the precondition "every float input is finite", every entry of the weight array is a real number.

  The precondition is the conjunction, over the four float inputs, of "every entry's absolute value is strictly below
  +∞", each conjunct one `and` over all entries of the comparison. The weight's conjunct is the second; an extended real
  whose absolute value is below +∞ is neither +∞ nor −∞.
-/
import proofs.«176222_j82609400971864_2_alg».proof.Pre_finite_inputs
import proofs.«176222_j82609400971864_2_alg».proof.Proof.LibERealFinite
import Idealize.ShloMosaic.PureOps.Ideal
import Idealize.ShloMosaic.Lib.ValueIdx
import Idealize.ShloMosaic.Lib.ReduceAll
import Idealize.ShloMosaic.Lib.Affine

noncomputable section

namespace Cert.FiniteWeight

open Idealize.ShloMosaic Cert.Pre_finite_inputs

/-- A rank-zero array has one index. -/
instance : Subsingleton S_.Idx := ⟨fun a b => funext fun d => d.elim0⟩

/-- If the finiteness predicate of the five inputs is all ones, each weight entry is a real number. -/
theorem weight_real [Facts] (a0 : FVec Ideal S4x2048x4096 .f32) (a1 : FVec Ideal S11008x4096 .f32) (a2 : FVec Ideal S11008 .f32)
    (a3 : IVec S11008x4096 1) (a4 : FVec Ideal S1x1 .f32)
    (h : fn (F := Ideal) a0 a1 a2 a3 a4 = fun _ => 1#1) (j : S11008x4096.Idx) :
    ∃ v : ℝ, a1 j = (v : EReal) := by
  have h0 := congrFun h ValueIdx.ix0
  dsimp only [fn, fn_part1] at h0
  obtain ⟨h13, -⟩ := IntOp.andi_eq_one.mp h0
  obtain ⟨h8, -⟩ := IntOp.andi_eq_one.mp h13
  obtain ⟨-, h7⟩ := IntOp.andi_eq_one.mp h8
  have hj := Host.reduce_andi_all _ _ _ _ _ h7 j
  exact Cert.LibERealFinite.real_of_abs_lt _ hj

end Cert.FiniteWeight

end
-- ==== Proof.Layer.lean ====
/-
  A linear layer whose weight is binarized except at marked outliers, over the extended reals.

  For an output feature o and an input feature d the layer's effective weight is
      W(o, d) = w(o, d) · 1          where the mask marks (o, d) as an outlier,
      W(o, d) = sign (w(o, d)) · s   elsewhere,
  with s the one entry of the [1, 1] scale array, and the layer sends a batch of rows x[b, q, ·] to
      y(b, q, o) = Σ_d x(b, q, d) · W(o, d) + bias(o).

  The sign may also be written w + (sign w − w). On the extended reals that is sign w exactly when w is
  a real number: at w = +∞ it reads ∞ + (1 − ∞) = ∞ + (−∞), which is −∞ by convention and not 1.
-/
import Idealize.ShloMosaic.PureOps.Ideal
import Idealize.ShloMosaic.Lib.ValueIdx

noncomputable section

namespace Cert.Layer

open Idealize.ShloMosaic Idealize.ShloMosaic.ValueIdx

/-- The effective weight at (o, d): the stored weight times one at an outlier, the sign times the scale elsewhere. -/
def simWeight (w : (⟨2, ![11008, 4096]⟩ : Shape).Idx → EReal) (mask : (⟨2, ![11008, 4096]⟩ : Shape).Idx → Elt Ideal .i1)
    (s : (⟨2, ![1, 1]⟩ : Shape).Idx → EReal) (j : (⟨2, ![11008, 4096]⟩ : Shape).Idx) : EReal :=
  Scalar.select (mask j) (w j * Ideal.ofBits .f32 0x3F800000#32) (Ideal.sign (w j) * s (ix2 (0 : Fin 1) (0 : Fin 1)))

/-- The layer's output at (b, q, o): the row x[b, q, ·] against row o of the effective weight, plus the bias at o. -/
def layer (x : (⟨3, ![4, 2048, 4096]⟩ : Shape).Idx → EReal) (w : (⟨2, ![11008, 4096]⟩ : Shape).Idx → EReal)
    (b : (⟨1, ![11008]⟩ : Shape).Idx → EReal) (mask : (⟨2, ![11008, 4096]⟩ : Shape).Idx → Elt Ideal .i1)
    (s : (⟨2, ![1, 1]⟩ : Shape).Idx → EReal) (i : (⟨3, ![4, 2048, 11008]⟩ : Shape).Idx) : EReal :=
  (∑ k : Fin 4096, x (ix3 (i 0) (i 1) k) * simWeight w mask s (ix2 (i 2) k)) + b (ix1 (i 2))

/-- For a real number a, a + (sign a − a) = sign a: all three terms are reals, and the identity is the reals'. -/
theorem add_sign_sub_self (a : ℝ) :
    (a : EReal) + (Ideal.sign (a : EReal) - (a : EReal)) = Ideal.sign (a : EReal) := by
  rw [Ideal.sign_coe, ← EReal.coe_sub, ← EReal.coe_add]
  congr 1
  ring

end Cert.Layer

end
-- ==== Proof.ReferenceLayer.lean ====
/-
  The reference program computes the layer of `Layer.lean`, provided every weight entry is a real number.

  Read one operation at a time, the reference's result at (b, q, o) is
      Σ_d x(b, q, d) · select(mask(o, d), w(o, d) · 1, (w(o, d) + (sign w(o, d) − w(o, d))) · s) + bias(o).
  It differs from the layer only in how the sign is spelt, and for a real w(o, d) the two spellings agree.
-/
import proofs.«176222_j82609400971864_2_alg».proof.Proof.Gen.ReferenceIdeal.Read
import proofs.«176222_j82609400971864_2_alg».proof.Proof.Layer

noncomputable section

namespace Cert.ReferenceLayer

open Idealize.ShloMosaic Idealize.ShloMosaic.ValueIdx Cert.ReferenceIdeal Cert.ReferenceIdeal.Read

variable [Cert.ReferenceIdeal.Facts]

/-- The contraction reads the input row (b, q) at feature k, -/
theorem lidx_eq (i : S4x2048x11008.Idx) (k : Fin 4096) : lidx_main_v8 i k = ix3 (i 0) (i 1) k :=
  funext fun a => Fin.ext (by match a with | ⟨0, _⟩ => rfl | ⟨1, _⟩ => rfl | ⟨2, _⟩ => rfl)
/-- and the weight's row o at feature k. -/
theorem ridx_eq (i : S4x2048x11008.Idx) (k : Fin 4096) : ridx_main_v8 i k = ix2 (i 2) k :=
  funext fun a => Fin.ext (by match a with | ⟨0, _⟩ => rfl | ⟨1, _⟩ => rfl)
/-- The bias is broadcast along the batch and row axes: at (b, q, o) it is read at o. -/
theorem bias_idx_eq (i : S4x2048x11008.Idx) : idx_main_v9 (idx_main_v10 i) = ix1 (i 2) :=
  funext fun a => Fin.ext (by match a with | ⟨0, _⟩ => rfl)
/-- The scale is broadcast to every weight position: it is read at its one entry. -/
theorem scale_idx_eq (j : S11008x4096.Idx) : idx_main_v5 j = ix2 (0 : Fin 1) (0 : Fin 1) :=
  funext fun a => Fin.ext (by match a with | ⟨0, _⟩ => rfl | ⟨1, _⟩ => rfl)

/-- At a position whose weight is real, the reference's selected weight is the layer's effective weight. -/
theorem weight_eq (x1 : (⟨S11008x4096, .f32⟩ : BufTy).Contents (Elt Ideal)) (x3 : (⟨S11008x4096, .i1⟩ : BufTy).Contents (Elt Ideal))
    (x4 : (⟨S1x1, .f32⟩ : BufTy).Contents (Elt Ideal)) (hfin : ∀ j, ∃ v : ℝ, x1 j = (v : EReal)) (j : S11008x4096.Idx) :
    val_main_v7 (F := Ideal) x1 x3 x4 j = Cert.Layer.simWeight x1 x3 x4 j := by
  obtain ⟨v, hv⟩ := hfin j
  rw [val_main_v7_apply, val_main_v1_apply, val_main_v6_apply, val_main_v4_apply, val_main_v3_apply, val_main_v2_apply,
    val_main_v5_apply, val_main_v0_apply, val_main_cst_apply, scale_idx_eq]
  simp only [Ideal.mulf_def, Ideal.addf_def, Ideal.subf_def, Ideal.hostUnary_sign_def, Ideal.ofBits_def]
  unfold Cert.Layer.simWeight
  rw [hv, Cert.Layer.add_sign_sub_self]

/-- The reference's last stage is the layer. -/
theorem reference_eq (x0 : (⟨S4x2048x4096, .f32⟩ : BufTy).Contents (Elt Ideal)) (x1 : (⟨S11008x4096, .f32⟩ : BufTy).Contents (Elt Ideal))
    (x2 : (⟨S11008, .f32⟩ : BufTy).Contents (Elt Ideal)) (x3 : (⟨S11008x4096, .i1⟩ : BufTy).Contents (Elt Ideal))
    (x4 : (⟨S1x1, .f32⟩ : BufTy).Contents (Elt Ideal)) (hfin : ∀ j, ∃ v : ℝ, x1 j = (v : EReal)) :
    val_main_v11 (F := Ideal) x0 x1 x2 x3 x4 = Cert.Layer.layer x0 x1 x2 x3 x4 := by
  funext i
  rw [val_main_v11_apply, val_main_v8_apply, val_main_v10_apply, val_main_v9_apply, bias_idx_eq]
  simp only [Ideal.addf_def, lidx_eq, ridx_eq]
  unfold Cert.Layer.layer
  refine congrArg (· + x2 (ix1 (i 2))) (Finset.sum_congr rfl fun k _ => ?_)
  exact congrArg (x0 (ix3 (i 0) (i 1) k) * ·) (weight_eq x1 x3 x4 hfin (ix2 (i 2) k))

end Cert.ReferenceLayer

end
-- ==== Proof.BlockProduct.lean ====
/-
  What the kernel body computes from one point's three blocks.

  The body multiplies a [2048, 4096] block of rows by the transpose of a [256, 4096] block of weight rows, starting from
  zero, and adds a [1, 256] bias row to every row of the product. So at (p, q) of the [2048, 256] result it holds
      Σ_k x0(p, k) · x1(q, k) + x2(0, q):
  row p of the first block against row q of the second, both indexed by the contracted feature k.
-/
import proofs.«176222_j82609400971864_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.BlockProduct

open Idealize.ShloMosaic Idealize.ShloMosaic.ValueIdx Cert.KernelIdeal Cert.KernelIdeal.Gen

variable [Cert.KernelIdeal.Facts]

/-- Axis by axis, where the product reads its operands for the result index i and the contracted index c: the left operand's
    row is the result's row, -/
theorem lhs_0 (i : S2048x256.Idx) (c : dot_S2048x4096_S256x4096_S2048x256_1_1_0_0_n_n.contr.Idx) : (dot_S2048x4096_S256x4096_S2048x256_1_1_0_0_n_n.lhsIdx i c 0).val = (i 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl
/-- its column the contracted index; -/
theorem lhs_1 (i : S2048x256.Idx) (c : dot_S2048x4096_S256x4096_S2048x256_1_1_0_0_n_n.contr.Idx) : (dot_S2048x4096_S256x4096_S2048x256_1_1_0_0_n_n.lhsIdx i c 1).val = (c ⟨0, by decide⟩).val :=
  dot_S2048x4096_S256x4096_S2048x256_1_1_0_0_n_n.lhsIdx_val_of_single rfl i c
/-- the right operand's row is the result's COLUMN (the second block enters transposed), -/
theorem rhs_0 (i : S2048x256.Idx) (c : dot_S2048x4096_S256x4096_S2048x256_1_1_0_0_n_n.contr.Idx) : (dot_S2048x4096_S256x4096_S2048x256_1_1_0_0_n_n.rhsIdx i c 0).val = (i 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl
/-- its column the contracted index. -/
theorem rhs_1 (i : S2048x256.Idx) (c : dot_S2048x4096_S256x4096_S2048x256_1_1_0_0_n_n.contr.Idx) : (dot_S2048x4096_S256x4096_S2048x256_1_1_0_0_n_n.rhsIdx i c 1).val = (c ⟨0, by decide⟩).val :=
  dot_S2048x4096_S256x4096_S2048x256_1_1_0_0_n_n.rhsIdx_val_of_single rfl i c

/-- So at (p, q) and feature k the left operand is read at (p, k), -/
theorem lhs_eq (p : Fin 2048) (q : Fin 256) (k : Fin 4096) :
    dot_S2048x4096_S256x4096_S2048x256_1_1_0_0_n_n.lhsIdx (ix2 p q) ((contrEquiv1 dot_S2048x4096_S256x4096_S2048x256_1_1_0_0_n_n 4096 rfl rfl).symm k) = ix2 p k := by
  have hk := contrEquiv1_symm_val dot_S2048x4096_S256x4096_S2048x256_1_1_0_0_n_n 4096 rfl rfl k
  exact funext fun a => Fin.ext (by
    match a with
    | ⟨0, _⟩ => exact lhs_0 _ _
    | ⟨1, _⟩ => exact (lhs_1 _ _).trans hk)
/-- and the right operand at (q, k). -/
theorem rhs_eq (p : Fin 2048) (q : Fin 256) (k : Fin 4096) :
    dot_S2048x4096_S256x4096_S2048x256_1_1_0_0_n_n.rhsIdx (ix2 p q) ((contrEquiv1 dot_S2048x4096_S256x4096_S2048x256_1_1_0_0_n_n 4096 rfl rfl).symm k) = ix2 q k := by
  have hk := contrEquiv1_symm_val dot_S2048x4096_S256x4096_S2048x256_1_1_0_0_n_n 4096 rfl rfl k
  exact funext fun a => Fin.ext (by
    match a with
    | ⟨0, _⟩ => exact rhs_0 _ _
    | ⟨1, _⟩ => exact (rhs_1 _ _).trans hk)

/-- The body's stored value at (p, q): the two rows' product over the 4096 features, plus the bias row at q. -/
theorem block_product (x0 : Vec Ideal S2048x4096 .bf16) (x1 : Vec Ideal S256x4096 .bf16) (x2 : Vec Ideal S1x256 .f32)
    (p : Fin 2048) (q : Fin 256) :
    k0_pay1 (F := Ideal) x0 x1 x2 (ix2 p q)
      = (∑ k : Fin 4096, (x0 (ix2 p k) : EReal) * (x1 (ix2 q k) : EReal)) + (x2 (ix2 (0 : Fin 1) q) : EReal) := by
  unfold k0_pay1
  rw [addf_apply, shapeCast_self, shapeCast_self, shapeCast_self, broadcastTo_1b_ab_apply]
  refine congrArg (· + (x2 (ix2 (0 : Fin 1) q) : EReal)) ?_
  refine (Ideal.matmul_constant_zero_apply (φ₁ := .bf16) (φ₂ := .bf16) dot_S2048x4096_S256x4096_S2048x256_1_1_0_0_n_n none x0 x1 (ix2 p q)).trans ?_
  rw [← Equiv.sum_comp (contrEquiv1 dot_S2048x4096_S256x4096_S2048x256_1_1_0_0_n_n 4096 rfl rfl).symm]
  refine Finset.sum_congr rfl fun k _ => ?_
  rw [lhs_eq, rhs_eq]

end Cert.BlockProduct

end
-- ==== Proof.Blocks.lean ====
/-
  From the grid's blocks to the whole product.

  The region runs over a 4 × 43 grid. At the point with coordinates (i, j) it reads rows 2048·i … 2048·i + 2047 of the
  row array, weight rows 256·j … 256·j + 255, and columns 256·j … 256·j + 255 of the bias row, and writes back the
  [2048, 256] block (i, j) of the output. By `BlockProduct.block_product` the entry (p, q) of that block is the product of
  row 2048·i + p with weight row 256·j + q plus the bias at 256·j + q — which is the entry (2048·i + p, 256·j + q) of ONE
  function of the three whole arrays,
      product A0 A1 A2 (r, n) = Σ_k A0(r, k) · A1(n, k) + A2(0, n).
  The 172 blocks tile the [8192, 11008] output: the entry (r, n) lies in the block of the point (r / 2048, n / 256). So the
  output array ends holding `product` of the three arrays as the region found them.
-/
import proofs.«176222_j82609400971864_2_alg».proof.Proof.Gen.KernelIdeal.Frame
import proofs.«176222_j82609400971864_2_alg».proof.Proof.BlockProduct
import Idealize.ShloMosaic.Lib.Pipeline.Value
import Idealize.ShloMosaic.Lib.ValueIdx
import Idealize.ShloMosaic.PureOps.Ideal

set_option maxRecDepth 16384

noncomputable section

namespace Cert.Blocks

open Idealize.ShloMosaic Idealize.ShloMosaic.TcCoe Idealize.ShloMosaic.ValueIdx Idealize.SL.Sem
open Idealize.ShloMosaic.Pipeline (Dat)
open Cert.KernelIdeal Cert.KernelIdeal.Gen

variable [Cert.KernelIdeal.Facts]

/-- Rows against weight rows, plus the bias row: the whole [8192, 11008] output as one function of the three arrays. -/
def product (A0 : S8192x4096.Idx → EReal) (A1 : S11008x4096.Idx → EReal) (A2 : S1x11008.Idx → EReal) : S8192x11008.Idx → EReal :=
  fun i => (∑ k : Fin 4096, A0 (ix2 (i 0) k) * A1 (ix2 (i 1) k)) + A2 (ix2 (0 : Fin 1) (i 1))

theorem zero_offsets : (![0, 0] : Fin 2 → Nat) = fun _ => 0 := funext fun a => by fin_cases a <;> rfl

/-- How the four index maps move over the grid: the row block follows the output's row block, the weight's row block and
    the bias's column block follow the output's COLUMN block, and the remaining block indices are zero. -/
theorem index_maps : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2) :=
  (by decide +kernel : ∀ t : Fin grid0.N, _)

/-- Every block (i, j) of the output is some point's. -/
theorem index_onto : ∀ (q0 : Fin 4) (q1 : Fin 43), ∃ t : Fin cfg0.N, win0_3.index t = ![q0.val, q1.val] :=
  (by decide +kernel : ∀ (q0 : Fin 4) (q1 : Fin 43), ∃ t : Fin grid0.N, win0_3.index t = ![q0.val, q1.val])

variable (m : (ℓ : Loc nD τ sig) → Buf (Elt Ideal) ℓ)

/-- The three arrays as the region finds them, as arrays of extended reals: the rows, -/
abbrev rowsArr (c : Dev nD) : S8192x4096.Idx → EReal := V m c main_call0_v8
/-- the weight rows, -/
abbrev weightArr (c : Dev nD) : S11008x4096.Idx → EReal := V m c main_call0_v6
/-- and the bias row. -/
abbrev biasArr (c : Dev nD) : S1x11008.Idx → EReal := V m c main_call0_v9

/-- Where the entry (p, q) of point t's output block lies in the whole output. -/
abbrev outIdx (t : Fin cfg0.N) (p : Fin 2048) (q : Fin 256) : S8192x11008.Idx := ((cfg0.win 3).blk t).view.emb (ix2 p q)

/-- What the point t writes back is block t of `product` of the three arrays as the region finds them. -/
theorem flushed_eq (c : Dev nD) (t : Fin cfg0.N) :
    (dats m 0 c).flushed 3 t = ((cfg0.win 3).blk t).view.read (Elt Ideal)
      (product (rowsArr m c) (weightArr m c) (biasArr m c)) := by
  show (cfg0.win 3).cut (grid0.coords t) ((dats m 0 c).after 3 t) = _
  rw [after0_3]
  unfold out0_3
  rw [View.canon_unit_zero zero_offsets]
  simp only [View.ld_unit_zero (S := S2048x4096) zero_offsets, View.ld_unit_zero (S := S256x4096) zero_offsets,
    View.ld_unit_zero (S := S1x256) zero_offsets]
  obtain ⟨e0, e1, e2, e3, e4, e5⟩ := index_maps t
  refine funext fun (y : S2048x256.Idx) => ?_
  obtain ⟨p, q, rfl⟩ : ∃ (p : Fin 2048) (q : Fin 256), y = ix2 p q := ⟨y 0, y 1, eq_ix2 y⟩
  refine (Cert.BlockProduct.block_product (iblk m c 0 t) (iblk m c 1 t) (iblk m c 2 t) p q).trans ?_
  -- each input block's entry, as an entry of its whole array at the output entry's row / column
  have h0 : ∀ k : Fin 4096, (((cfg0.win 0).blk t).view.emb (ix2 p k) : S8192x4096.Idx) = ix2 (outIdx t p q 0) k := fun k => by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 4096 + 1 * k.val = k.val; omega
  have h1 : ∀ k : Fin 4096, (((cfg0.win 1).blk t).view.emb (ix2 q k) : S11008x4096.Idx) = ix2 (outIdx t p q 1) k := fun k => by
    funext a; apply Fin.ext
    match a with
    | ⟨0, _⟩ => show win0_1.index t (0 : Fin 2) * 256 + 1 * q.val = win0_3.index t (1 : Fin 2) * 256 + 1 * q.val; omega
    | ⟨1, _⟩ => show win0_1.index t (1 : Fin 2) * 4096 + 1 * k.val = k.val; omega
  have h2 : (((cfg0.win 2).blk t).view.emb (ix2 (0 : Fin 1) q) : S1x11008.Idx) = ix2 (0 : Fin 1) (outIdx t p q 1) := by
    funext a; apply Fin.ext
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  show (∑ k : Fin 4096, rowsArr m c (((cfg0.win 0).blk t).view.emb (ix2 p k)) * weightArr m c (((cfg0.win 1).blk t).view.emb (ix2 q k)))
      + biasArr m c (((cfg0.win 2).blk t).view.emb (ix2 (0 : Fin 1) q))
    = (∑ k : Fin 4096, rowsArr m c (ix2 (outIdx t p q 0) k) * weightArr m c (ix2 (outIdx t p q 1) k))
      + biasArr m c (ix2 (0 : Fin 1) (outIdx t p q 1))
  exact congrArg₂ (· + ·)
    (Finset.sum_congr rfl fun k _ => congrArg₂ (· * ·) (congrArg (rowsArr m c) (h0 k)) (congrArg (weightArr m c) (h1 k)))
    (congrArg (biasArr m c) h2)

/-- An index of the output is in point t's block iff each coordinate is in the block's range on its axis. -/
theorem mem_block (t : Fin cfg0.N) (i : S8192x11008.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_call0_v10).slice (win0_3.rect t)).set ↔ _
  rw [View.set_slice_whole, Rect.mem_set_unit]
  exact Iff.rfl

/-- The blocks tile the output: (r, n) is in the block of the point (r / 2048, n / 256). -/
theorem cover (i : S8192x11008.Idx) : ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ := index_onto ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- The output array after the region: `product` of the three arrays as the region found them. -/
theorem final (c : Dev nD) : (dats m 0 c).arrAt 3 cfg0.N
    = product (rowsArr m c) (weightArr m c) (biasArr m c) :=
  (dats m 0 c).arrAt_eq_of_cover 3 _ (fun t _ => flushed_eq m c t) cover

end Cert.Blocks

end
-- ==== Proof.Operands.lean ====
/-
  The three arrays the kernel's region reads, as functions of the program's arguments.

  Before the region the program prepares, from the arguments x [4, 2048, 4096], w [11008, 4096], bias [11008], the outlier
  mask and the [1, 1] scale s:
    * the rows: x with its two leading axes merged, so flat row r = 2048·b + q is x[b, q, ·];
    * the effective weight: at (o, d), w(o, d) · 1 where the mask marks an outlier and sign w(o, d) · s elsewhere;
    * the bias as one row [1, 11008].
  A change of float format is the identity on the extended reals, so the narrowing of the rows and of the weight to a
  shorter format does not show.
-/
import proofs.«176222_j82609400971864_2_alg».proof.Proof.Gen.KernelIdeal.Frame
import proofs.«176222_j82609400971864_2_alg».proof.Proof.Layer
import Idealize.ShloMosaic.Lib.StableHlo.Run
import Idealize.ShloMosaic.Lib.Pipeline.Value
import Idealize.ShloMosaic.Lib.ValueIdx
import Idealize.ShloMosaic.PureOps.Ideal

noncomputable section

namespace Cert.Operands

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen

variable [Cert.KernelIdeal.Facts]

/-! ## Read at an index -/

/-- The merged rows at (r, k): x at batch r / 2048, row r % 2048, feature k. -/
theorem rows_read (x : S4x2048x4096.Idx → EReal) (r : Fin 8192) (k : Fin 4096) :
    truncf (F := Ideal) .bf16 (shapeCast S8192x4096 x shapeCasts_S4x2048x4096_S8192x4096) bitsLt_bf16_f32 (ix2 r k)
      = x (ix3 (⟨r.val / 2048, by omega⟩ : Fin 4) (⟨r.val % 2048, by omega⟩ : Fin 2048) k) := by
  show shapeCast S8192x4096 x shapeCasts_S4x2048x4096_S8192x4096 (ix2 r k) = _
  refine shapeCast_apply x _ (ix2 r k) _ ?_
  rw [Shape.rowMajor_val_three, Shape.rowMajor_val_two]
  show (r.val / 2048 * 2048 + r.val % 2048) * 4096 + k.val = r.val * 4096 + k.val
  omega

/-- The bias row at (0, n): the bias at n. -/
theorem bias_read (b : S11008.Idx → EReal) (n : Fin 11008) :
    shapeCast S1x11008 b shapeCasts_S11008_S1x11008 (ix2 (0 : Fin 1) n) = b (ix1 n) := by
  refine shapeCast_apply b _ (ix2 (0 : Fin 1) n) _ ?_
  rw [Shape.rowMajor_val_one, Shape.rowMajor_val_two]
  show n.val = 0 * 11008 + n.val
  omega

/-- The scale broadcast to every weight position reads its one entry. -/
theorem scale_read (s : S1x1.Idx → EReal) (j : S11008x4096.Idx) :
    broadcastInDim S11008x4096 ![0, 1] bcast_S1x1_S11008x4096_0_1 s j = s (ix2 (0 : Fin 1) (0 : Fin 1)) :=
  broadcastInDim_apply _ bcast_S1x1_S11008x4096_0_1 s j (ix2 (0 : Fin 1) (0 : Fin 1)) (fun a => match a with
    | ⟨0, _⟩ => by show 0 = if (1 : Nat) = 1 then 0 else (j 0).val; rw [if_pos rfl]
    | ⟨1, _⟩ => by show 0 = if (1 : Nat) = 1 then 0 else (j 1).val; rw [if_pos rfl])

/-- The prepared weight at (o, d) is the layer's effective weight there. -/
theorem weight_read (w : S11008x4096.Idx → EReal) (mask : S11008x4096.Idx → Elt Ideal .i1) (s : S1x1.Idx → EReal)
    (j : S11008x4096.Idx) :
    truncf (F := Ideal) .bf16 (select mask
        (mulf w (broadcastInDim S11008x4096 ![] bcast_S_S11008x4096 (constant (F := Ideal) S_ .f32 0x3F800000#32)))
        (mulf (Host.sign (F := Ideal) w) (broadcastInDim S11008x4096 ![0, 1] bcast_S1x1_S11008x4096_0_1 s))) bitsLt_bf16_f32 j
      = Cert.Layer.simWeight w mask s j := by
  unfold Cert.Layer.simWeight
  show Scalar.select (mask j) (w j * Ideal.ofBits .f32 0x3F800000#32)
      (Ideal.sign (w j) * broadcastInDim S11008x4096 ![0, 1] bcast_S1x1_S11008x4096_0_1 s j) = _
  rw [scale_read]

/-! ## The arrays as the region finds them -/

variable (m : (ℓ : Loc nD τ sig) → Buf (Elt Ideal) ℓ) (c : Dev nD)

/-- Window 0's array: the merged rows of x. -/
theorem rows_eq : (V m c main_call0_v8 : S8192x4096.Idx → EReal)
    = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_call0_v8) = _
  after_results
  rfl

/-- Window 1's array: the effective weight. -/
theorem weight_eq : (V m c main_call0_v6 : S11008x4096.Idx → EReal)
    = truncf (F := Ideal) .bf16 (select (m ((c : Thread nD τ).loc main_arg3))
        (mulf (m ((c : Thread nD τ).loc main_arg1)) (broadcastInDim S11008x4096 ![] bcast_S_S11008x4096 (constant (F := Ideal) S_ .f32 0x3F800000#32)))
        (mulf (Host.sign (F := Ideal) (m ((c : Thread nD τ).loc main_arg1))) (broadcastInDim S11008x4096 ![0, 1] bcast_S1x1_S11008x4096_0_1 (m ((c : Thread nD τ).loc main_arg4))))) bitsLt_bf16_f32 := by
  show StableHlo.after hostOps0 (fun b => m (c, b)) (Proc.devRef .tc main_call0_v6) = _
  after_results
  rfl

/-- Window 2's array: the bias as one row. -/
theorem bias_eq : (V m c main_call0_v9 : S1x11008.Idx → EReal)
    = shapeCast S1x11008 (m ((c : Thread nD τ).loc main_arg2)) shapeCasts_S11008_S1x11008 := by
  show StableHlo.after hostOps0 (fun b => m (c, b)) (Proc.devRef .tc main_call0_v9) = _
  after_results
  rfl

end Cert.Operands

end
-- ==== Proof.Result.lean ====
/-
  The kernel program's result is the layer of `Layer.lean`.

  After the region the program splits the output's 8192 rows back into [4, 2048]: the result at (b, q, o) is the output
  at row 2048·b + q, column o. By `Blocks.final` the output is the product of the prepared rows with the prepared weight
  rows plus the bias row, and by `Operands` row 2048·b + q of the prepared rows is x[b, q, ·] (as (2048·b + q) / 2048 = b
  and (2048·b + q) % 2048 = q for q < 2048), the prepared weight is the effective weight, and the bias row at o is the
  bias at o. So the result at (b, q, o) is Σ_d x(b, q, d) · W(o, d) + bias(o).
-/
import proofs.«176222_j82609400971864_2_alg».proof.Proof.Gen.KernelIdeal.Frame
import proofs.«176222_j82609400971864_2_alg».proof.Proof.Blocks
import proofs.«176222_j82609400971864_2_alg».proof.Proof.Operands
import proofs.«176222_j82609400971864_2_alg».proof.Proof.Layer
import Idealize.ShloMosaic.Lib.StableHlo.Run
import Idealize.ShloMosaic.Lib.Pipeline.Value
import Idealize.ShloMosaic.Lib.ValueIdx
import Idealize.ShloMosaic.PureOps.Ideal

noncomputable section

namespace Cert.Result

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen

variable [Cert.KernelIdeal.Facts]
variable (m : (ℓ : Loc nD τ sig) → Buf (Elt Ideal) ℓ)

/-- The program's five arguments as launched, as arrays of extended reals (the mask an array of bits). -/
abbrev argX (c : Dev nD) : S4x2048x4096.Idx → EReal := m ((c : Thread nD τ).loc main_arg0)
abbrev argW (c : Dev nD) : S11008x4096.Idx → EReal := m ((c : Thread nD τ).loc main_arg1)
abbrev argBias (c : Dev nD) : S11008.Idx → EReal := m ((c : Thread nD τ).loc main_arg2)
abbrev argMask (c : Dev nD) : S11008x4096.Idx → Elt Ideal .i1 := m ((c : Thread nD τ).loc main_arg3)
abbrev argScale (c : Dev nD) : S1x1.Idx → EReal := m ((c : Thread nD τ).loc main_arg4)

/-- The layer of the arguments as launched. -/
abbrev layerOf (c : Dev nD) : S4x2048x11008.Idx → EReal :=
  Cert.Layer.layer (argX m c) (argW m c) (argBias m c) (argMask m c) (argScale m c)

/-- The output's rows split back into [4, 2048] give the layer: (b, q, o) reads row 2048·b + q, column o. -/
theorem reshaped_product_eq (c : Dev nD) :
    shapeCast S4x2048x11008 (Cert.Blocks.product (Cert.Blocks.rowsArr m c) (Cert.Blocks.weightArr m c) (Cert.Blocks.biasArr m c))
      shapeCasts_S8192x11008_S4x2048x11008 = layerOf m c := by
  refine funext fun (i : S4x2048x11008.Idx) => ?_
  obtain ⟨b, q, o, rfl⟩ : ∃ (b : Fin 4) (q : Fin 2048) (o : Fin 11008), i = ix3 b q o := ⟨i 0, i 1, i 2, eq_ix3 i⟩
  have hr : b.val * 2048 + q.val < 8192 := by omega
  refine (shapeCast_apply _ _ (ix3 b q o) (ix2 (⟨b.val * 2048 + q.val, hr⟩ : Fin 8192) o) ?_).trans ?_
  · rw [Shape.rowMajor_val_two, Shape.rowMajor_val_three]
    show (b.val * 2048 + q.val) * 11008 + o.val = (b.val * 2048 + q.val) * 11008 + o.val
    rfl
  · show (∑ k : Fin 4096, Cert.Blocks.rowsArr m c (ix2 (⟨b.val * 2048 + q.val, hr⟩ : Fin 8192) k) * Cert.Blocks.weightArr m c (ix2 o k))
          + Cert.Blocks.biasArr m c (ix2 (0 : Fin 1) o)
        = (∑ k : Fin 4096, argX m c (ix3 b q k) * Cert.Layer.simWeight (argW m c) (argMask m c) (argScale m c) (ix2 o k))
          + argBias m c (ix1 o)
    refine congrArg₂ (· + ·) (Finset.sum_congr rfl fun k _ => congrArg₂ (· * ·) ?_ ?_) ?_
    · refine (congrFun (Cert.Operands.rows_eq m c) _).trans
        ((Cert.Operands.rows_read (argX m c) (⟨b.val * 2048 + q.val, hr⟩ : Fin 8192) k).trans (congrArg (argX m c) ?_))
      funext a; apply Fin.ext
      match a with
      | ⟨0, _⟩ => show (b.val * 2048 + q.val) / 2048 = b.val; omega
      | ⟨1, _⟩ => show (b.val * 2048 + q.val) % 2048 = q.val; omega
      | ⟨2, _⟩ => rfl
    · exact (congrFun (Cert.Operands.weight_eq m c) _).trans
        (Cert.Operands.weight_read (argW m c) (argMask m c) (argScale m c) (ix2 o k))
    · exact (congrFun (Cert.Operands.bias_eq m c) _).trans (Cert.Operands.bias_read (argBias m c) o)

/-- What the one operation after the region leaves in the result: the output array, its rows split back. -/
theorem tail_eq (c : Dev nD) :
    Pipeline.afterTail₀ cfgs (dats m) 0 (V0 m) [hostOps1] c main_v0
      = shapeCast S4x2048x11008 (Cert.Blocks.product (Cert.Blocks.rowsArr m c) (Cert.Blocks.weightArr m c) (Cert.Blocks.biasArr m c))
          shapeCasts_S8192x11008_S4x2048x11008 := by
  unfold Pipeline.afterTail₀
  show StableHlo.after hostOps1 _ (Proc.devRef .tc main_v0) = _
  after_results
  rw [(Pipeline.withArrays_arr spec0 launch0.win.arr_inj c _ _ 3).trans (Cert.Blocks.final m c)]
  rfl

/-- The kernel program's run: every weakly fair execution terminates with the result at the layer of the arguments and
    the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v0) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v0 (Pipeline.mem_restRefs_of main_v0 (by decide) (by decide))).trans (tail_eq m c)).trans (reshaped_product_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Result

end
-- ==== Proof.lean ====
/-
  A linear layer whose weight is binarized except at marked outliers: the tiled kernel program against the plain reference,
  as exact extended reals.

  Both programs send x [4, 2048, 4096], w [11008, 4096], bias [11008], an outlier mask and a [1, 1] scale s to
      y(b, q, o) = Σ_d x(b, q, d) · W(o, d) + bias(o),    W(o, d) = w(o, d) · 1 at an outlier, sign w(o, d) · s elsewhere
  (`Layer.lean`). The kernel program prepares W and the merged rows of x first, multiplies them block by block over a 4 × 43
  grid — each [2048, 256] block of the output one whole product over the 4096 features plus a bias row — and splits the
  rows back (`Operands`, `BlockProduct`, `Blocks`, `Result`). The reference takes one contraction over the whole arrays
  (`ReferenceLayer`). On the extended reals a change of float format is the identity and a finite sum does not depend on
  how it is tiled, so the two agree but for ONE point: the reference spells the sign as w + (sign w − w), which is sign w
  only for a real w (at w = +∞ it is ∞ + (−∞)). That is where the precondition "every float input is finite" is used
  (`FiniteWeight`): under it every weight entry is a real.

  Each program runs, without fault, and leaves its arguments as launched: the two kernel programs by their generated frame
  runs, the reference by its generated run. The idealized kernel program is the kernel program's own text read over the
  extended reals: no operation of it was rewritten, so there is nothing to preserve.
-/
import proofs.«176222_j82609400971864_2_alg».proof.Defs
import proofs.«176222_j82609400971864_2_alg».proof.Proof.Gen.Kernel
import proofs.«176222_j82609400971864_2_alg».proof.Proof.Gen.Kernel.Frame
import proofs.«176222_j82609400971864_2_alg».proof.Proof.Gen.KernelIdeal
import proofs.«176222_j82609400971864_2_alg».proof.Proof.Gen.KernelIdeal.Frame
import proofs.«176222_j82609400971864_2_alg».proof.Proof.Gen.ReferenceIdeal
import proofs.«176222_j82609400971864_2_alg».proof.Proof.Gen.ReferenceIdeal.Run
import proofs.«176222_j82609400971864_2_alg».proof.Proof.Gen.ReferenceIdeal.Read
import proofs.«176222_j82609400971864_2_alg».proof.Proof.Gen.Pre_finite_inputs
import proofs.«176222_j82609400971864_2_alg».proof.Proof.FiniteWeight
import proofs.«176222_j82609400971864_2_alg».proof.Proof.ReferenceLayer
import proofs.«176222_j82609400971864_2_alg».proof.Proof.Result
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does it read over the extended reals. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading over the extended reals. -/
theorem preserves : Cert.preserves_Kernel_KernelIdeal := trivial

/-- From memories agreeing on the five arguments, with every float input finite, the kernel program and the reference
    both end with the layer of the arguments in their result: the kernel program by `Result.run`, the reference by its run,
    whose term is the layer because every weight entry is a real. -/
theorem algebraic : Cert.algebraic_KernelIdeal_ReferenceIdeal := by
  intro m ρ m' ρ' hpre hagree
  refine ⟨fun c => Cert.Result.layerOf m c, Cert.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1,
    (hagree c).2.2.2.2]
  exact Cert.ReferenceLayer.reference_eq _ _ _ _ _ (fun j => Cert.FiniteWeight.weight_real _ _ _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
